-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 82
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x128, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x128, .f32⟩
  | .hbm, ⟨72, _⟩ => ⟨S850000x1, .f32⟩
  | .hbm, ⟨73, _⟩ => ⟨S850000x128, .f32⟩
  | .hbm, ⟨74, _⟩ => ⟨S850000x128, .f32⟩
  | .hbm, ⟨75, _⟩ => ⟨S_, .f32⟩
  | .hbm, ⟨76, _⟩ => ⟨S50000x128, .f32⟩
  | .hbm, ⟨77, _⟩ => ⟨S850000x1, .i32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S850000, .i32⟩
  | .hbm, ⟨23, _⟩ => ⟨S850000, .i1⟩
  | .hbm, ⟨24, _⟩ => ⟨S_, .i32⟩
  | .hbm, ⟨25, _⟩ => ⟨S850000, .i32⟩
  | .hbm, ⟨26, _⟩ => ⟨S850000, .i32⟩
  | .hbm, ⟨27, _⟩ => ⟨S850000, .i32⟩
  | .hbm, ⟨28, _⟩ => ⟨S850000x1, .i32⟩
  | .hbm, ⟨29, _⟩ => ⟨S850000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000, .i32⟩
  | .hbm, ⟨64, _⟩ => ⟨S850000, .i32⟩
  | .hbm, ⟨65, _⟩ => ⟨S850000, .i32⟩
  | .hbm, ⟨66, _⟩ => ⟨S_, .f32⟩
  | .hbm, ⟨67, _⟩ => ⟨S850000, .f32⟩
  | .hbm, ⟨68, _⟩ => ⟨S_, .f32⟩
  | .hbm, ⟨69, _⟩ => ⟨S50000, .f32⟩
  | .hbm, ⟨70, _⟩ => ⟨S850000x1, .i32⟩
  | .hbm, ⟨71, _⟩ => ⟨S50000, .f32⟩
  | .hbm, ⟨72, _⟩ => ⟨S50000, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000, .f32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .f32⟩
  | .hbm, ⟨101, _⟩ => ⟨S850000x1, .f32⟩
  | .hbm, ⟨102, _⟩ => ⟨S850000x128, .f32⟩
  | .hbm, ⟨103, _⟩ => ⟨S850000x128, .f32⟩
  | .hbm, ⟨104, _⟩ => ⟨S_, .f32⟩
  | .hbm, ⟨105, _⟩ => ⟨S50000x128, .f32⟩
  | .hbm, ⟨106, _⟩ => ⟨S850000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.GraphConv.lean ====
/-
  Two graph-convolution layers over a fixed edge list, as ONE function of the argument arrays.

  The graph has 50000 nodes and 800000 directed edges, given as a 2 × 800000 integer array (row 0 the
  sources, row 1 the targets). Every node also gets a self loop, so the edge lists have 850000 entries:
  the given edges followed by (0, 0), (1, 1), …, (49999, 49999).

  * The in-degree `deg v` counts the entries whose target is `v` (a scatter-add of ones), and
    `dinv = deg ^ (-1/2)`.
  * Entry `k` with source `s` and target `d` carries the weight `dinv s · dinv d` (a negative index
    is wrapped by adding 50000 before the gather, as array indexing does).
  * One layer sends the node features `h` along the edges: row `k` of the messages is row `s` of
    `h` times the weight of entry `k`; the messages are summed into their targets, and the bias row is
    added to every node.
  * The network is `layer (mm (relu (layer (mm x W₁) b₁)) W₂) b₂`, where `mm` is the matrix
    product of a 50000 × 128 by a 128 × 128 matrix.

  The matrix product is a PARAMETER here: the two programs compared differ only in how they compute
  it, so each is this function at its own product, and the two products are compared separately.
  Nothing in this module is opened by the comparison: gather, scatter-add and the reciprocal square
  root stay the operations they are.
-/
import Idealize.ShloMosaic.Lib.StableHlo
import Idealize.ShloMosaic.PureOps

set_option synthInstance.maxSize 4096

noncomputable section

namespace Cert.GraphConv

open Idealize.ShloMosaic Idealize.SL.Sem

/-! ## Shapes -/

abbrev SFeat : Shape := ⟨2, ![50000, 128]⟩     -- node features
abbrev SEdges : Shape := ⟨2, ![2, 800000]⟩     -- the edge array
abbrev SWeight : Shape := ⟨2, ![128, 128]⟩     -- a layer's weight matrix
abbrev SBias : Shape := ⟨1, ![128]⟩
abbrev SEdgeRow : Shape := ⟨2, ![1, 800000]⟩   -- one row of the edge array
abbrev SGiven : Shape := ⟨1, ![800000]⟩        -- the given edges
abbrev SNode : Shape := ⟨1, ![50000]⟩
abbrev SAll : Shape := ⟨1, ![850000]⟩          -- the given edges, then the self loops
abbrev SOne : Shape := ⟨0, ![]⟩
abbrev SAllCol : Shape := ⟨2, ![850000, 1]⟩
abbrev SMsg : Shape := ⟨2, ![850000, 128]⟩     -- one message row per entry of the edge lists
abbrev SBiasRow : Shape := ⟨2, ![1, 128]⟩

/-! ## The shape relations the operations take -/

theorem slices_src : SEdges.Slices ![0, 0] SEdgeRow := by decide
theorem slices_dst : SEdges.Slices ![1, 0] SEdgeRow := by decide
theorem casts_row : SEdgeRow.ShapeCasts SGiven := by decide
theorem concat_all : Shape.Concatenates [SGiven, SNode] SAll 0 := by decide
theorem bc_one_all : SOne.BroadcastsInDim SAll (![] : Fin 0 → Fin SAll.rank) := by decide
theorem bc_one_node : SOne.BroadcastsInDim SNode (![] : Fin 0 → Fin SNode.rank) := by decide
theorem bc_all_col : SAll.BroadcastsInDim SAllCol (![0] : Fin 1 → Fin SAllCol.rank) := by decide
theorem bc_col_msg : SAllCol.BroadcastsInDim SMsg (![0, 1] : Fin 2 → Fin SMsg.rank) := by decide
theorem bc_one_feat : SOne.BroadcastsInDim SFeat (![] : Fin 0 → Fin SFeat.rank) := by decide
theorem bc_bias_row : SBias.BroadcastsInDim SBiasRow (![1] : Fin 1 → Fin SBiasRow.rank) := by decide
theorem bc_row_feat : SBiasRow.BroadcastsInDim SFeat (![0, 1] : Fin 2 → Fin SFeat.rank) := by decide
theorem scatterDeg_wf : ScatterDims.WF SNode SAllCol SAll [] [0] [0] 1 := by decide
theorem gatherNode_wf : GatherDims.WF SNode SAllCol SAll [] [0] [] [0] [] 1 ![1] := by decide
theorem gatherRow_wf : GatherDims.WF SFeat SAllCol SMsg [1] [0] [] [0] [] 1 ![1, 128] := by decide
theorem scatterRow_wf : ScatterDims.WF SFeat SAllCol SMsg [1] [0] [0] 1 := by decide

/-- Scatter one number per entry into the node it names. -/
def scatterDeg : ScatterDims SNode SAllCol SAll where
  updateWindowDims := []
  insertedWindowDims := [0]
  scatterDimsToOperandDims := [0]
  indexVectorDim := 1
  wf := scatterDeg_wf
/-- Gather one number per entry from the node it names. -/
def gatherNode : GatherDims SNode SAllCol SAll where
  offsetDims := []
  collapsedSliceDims := [0]
  operandBatchingDims := []
  startIndicesBatchingDims := []
  startIndexMap := [0]
  indexVectorDim := 1
  sliceSizes := ![1]
  wf := gatherNode_wf
/-- Gather one feature row per entry from the node it names. -/
def gatherRow : GatherDims SFeat SAllCol SMsg where
  offsetDims := [1]
  collapsedSliceDims := [0]
  operandBatchingDims := []
  startIndicesBatchingDims := []
  startIndexMap := [0]
  indexVectorDim := 1
  sliceSizes := ![1, 128]
  wf := gatherRow_wf
/-- Scatter one feature row per entry into the node it names. -/
def scatterRow : ScatterDims SFeat SAllCol SMsg where
  updateWindowDims := [1]
  insertedWindowDims := [0]
  scatterDimsToOperandDims := [0]
  indexVectorDim := 1
  wf := scatterRow_wf

variable {F : FTy → Type} [FloatOps F]

/-! ## The edge lists -/

/-- The sources: row 0 of the edge array, then the nodes themselves (the self loops). -/
def sources (e : IVec SEdges 32) : IVec SAll 32 :=
  concatenate SAll 0 [⟨SGiven, (shapeCast _ (extractStridedSlice SEdgeRow ![0, 0] e slices_src) casts_row)⟩, ⟨SNode, (iotaInDim SNode 32 0)⟩] concat_all

/-- The targets: row 1 of the edge array, then the nodes themselves. -/
def targets (e : IVec SEdges 32) : IVec SAll 32 :=
  concatenate SAll 0 [⟨SGiven, (shapeCast _ (extractStridedSlice SEdgeRow ![1, 0] e slices_dst) casts_row)⟩, ⟨SNode, (iotaInDim SNode 32 0)⟩] concat_all

/-- A list of node numbers as gather indices: a negative number has 50000 added, and the list becomes a column. -/
def wrapped (s : IVec SAll 32) : IVec SAllCol 32 :=
  broadcastInDim SAllCol ![0] bc_all_col (select (cmpi .slt s (broadcastInDim SAll ![] bc_one_all (constantI SOne 32 0#32))) (addi s (broadcastInDim SAll ![] bc_one_all (constantI SOne 32 50000#32))) s)

/-! ## The weights of the entries -/

/-- `deg ^ (-1/2)`, where `deg v` is the number of entries of the target list `d` equal to `v`: ones summed into
    their targets. -/
def invSqrtDeg (d : IVec SAll 32) : FVec F SNode .f32 :=
  Host.rsqrt (Host.scatterAdd scatterDeg (broadcastInDim SNode ![] bc_one_node (constant SOne .f32 0x00000000#32)) (broadcastInDim SAllCol ![0] bc_all_col d) (broadcastInDim SAll ![] bc_one_all (constant SOne .f32 0x3F800000#32)))

/-- The weight of each entry: `deg ^ (-1/2)` at its source times `deg ^ (-1/2)` at its target. -/
def edgeWeight (s d : IVec SAll 32) : FVec F SAll .f32 :=
  mulf (Host.gather gatherNode (invSqrtDeg (F := F) d) (wrapped s)) (Host.gather gatherNode (invSqrtDeg (F := F) d) (wrapped d))

/-! ## One layer, and the network -/

/-- The features `h` sent along the entries (sources `s`, targets `d`) with weights `wt`, summed into their targets,
    plus the bias row. -/
def propagate (h : FVec F SFeat .f32) (s d : IVec SAll 32) (wt : FVec F SAll .f32) (b : FVec F SBias .f32) : FVec F SFeat .f32 :=
  addf (Host.scatterAdd scatterRow (broadcastInDim SFeat ![] bc_one_feat (constant SOne .f32 0x00000000#32)) (broadcastInDim SAllCol ![0] bc_all_col d) (mulf (Host.gather gatherRow h (wrapped s)) (broadcastInDim SMsg ![0, 1] bc_col_msg (broadcastInDim SAllCol ![0] bc_all_col wt)))) (broadcastInDim SFeat ![0, 1] bc_row_feat (broadcastInDim SBiasRow ![1] bc_bias_row b))

/-- Equal arguments, equal layers. -/
theorem propagate_congr {h h' : FVec F SFeat .f32} {s s' d d' : IVec SAll 32} {wt wt' : FVec F SAll .f32} {b b' : FVec F SBias .f32}
    (eh : h = h') (es : s = s') (ed : d = d') (ew : wt = wt') (eb : b = b') :
    propagate h s d wt b = propagate h' s' d' wt' b' := by
  subst eh es ed ew eb; rfl

/-- The positive part, entry by entry. -/
def relu (h : FVec F SFeat .f32) : FVec F SFeat .f32 :=
  maximumf h (broadcastInDim SFeat ![] bc_one_feat (constant SOne .f32 0x00000000#32))

/-- Two layers with the matrix product `mm`, over the edge lists and weights of the edge array `e`. -/
def network (mm : FVec F SFeat .f32 → FVec F SWeight .f32 → FVec F SFeat .f32)
    (x : FVec F SFeat .f32) (e : IVec SEdges 32) (W₁ : FVec F SWeight .f32) (b₁ : FVec F SBias .f32)
    (W₂ : FVec F SWeight .f32) (b₂ : FVec F SBias .f32) : FVec F SFeat .f32 :=
  propagate (mm (relu (propagate (mm x W₁) (sources e) (targets e) (edgeWeight (F := F) (sources e) (targets e)) b₁)) W₂)
    (sources e) (targets e) (edgeWeight (F := F) (sources e) (targets e)) b₂

end Cert.GraphConv

end
-- ==== Proof.RefTerm.lean ====
/-
  The reference program's result is the two-layer network at the host's matrix product.

  The reference's run ends with its result array at one composed term of the argument arrays: the host
  operations applied in order. Folding that term along the network's definitions (edge lists, weights of the
  entries, one layer, the positive part) gives `GraphConv.network` with `mm` the host's `dot_general`.
  The reference computes the weights of the entries once per layer, from the same edge array: both copies are
  the same term.
-/
import proofs.«138168_j48533130445252_1_alg».proof.Proof.Gen.ReferenceIdeal.Run
import proofs.«138168_j48533130445252_1_alg».proof.Proof.GraphConv

noncomputable section

namespace Cert.ReferenceIdeal.RefValue

open Cert.ReferenceIdeal Cert.ReferenceIdeal.Gen Idealize.ShloMosaic Idealize.ShloMosaic.TcCoe Idealize.SL.Sem Cert.GraphConv

variable {F : FTy → Type} [FloatOps F]

/-- The host's product of a 50000 × 128 by a 128 × 128 matrix. -/
def hostProduct (x : FVec F SFeat .f32) (W : FVec F SWeight .f32) : FVec F SFeat .f32 :=
  Host.dotGeneral dot_S50000x128_S128x128_S50000x128_1_0_0_1_n_n none x W

set_option maxRecDepth 8192 in
/-- The reference's result term is the network at the host's product, of the launch contents of its arguments. -/
theorem result_eq (m : (ℓ : Loc nD τ sig) → Buf (Elt F) ℓ) (c : Dev nD) :
    Cert.ReferenceIdeal.Value.res_main_v84 (F := F) m c
      = network (F := F) hostProduct (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v84 network propagate relu edgeWeight invSqrtDeg wrapped sources targets hostProduct
  rfl

end Cert.ReferenceIdeal.RefValue

end
-- ==== Proof.KernelRun.lean ====
/-
  The idealized kernel program's run, with its result array read at the end.

  The program is six segments in order: host operations, the first matrix-product region, host operations (the first
  layer's aggregation, then the positive part), the second matrix-product region, and host operations (the second
  layer's aggregation). The buffer contents at each boundary are a fold through these segments from the launch memory;
  at the end every unscoped buffer holds the last boundary's contents. The frame claim reads only the argument arrays
  there; here the result array is read as well, so the run ends with the result at the last boundary's contents.
-/
import proofs.«138168_j48533130445252_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«138168_j48533130445252_1_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.Product.lean ====
/-
  The matrix product of the network, over the extended reals, and the host's `dot_general` as that product.

  `product x W` at entry `(r, j)` is `∑ k, x (r, k) · W (k, j)`, the sum over the 128 columns of `x` and rows of `W`.
  A host `dot_general` whose dimension numbers contract the left operand's columns with the right operand's rows,
  with no batch axes, read at an entry over the extended reals, is exactly this sum: exact arithmetic has no rounding
  and no order of summation left in it.
-/
import proofs.«138168_j48533130445252_1_alg».proof.Proof.GraphConv
import proofs.«138168_j48533130445252_1_alg».proof.Proof.LibPlainDot

noncomputable section

namespace Cert.GraphConv

open Idealize.ShloMosaic Idealize.ShloMosaic.ValueIdx

/-- The matrix product: entry `(r, j)` is the sum over `k` of `x (r, k) · W (k, j)`. -/
def product (x : FVec Ideal SFeat .f32) (W : FVec Ideal SWeight .f32) : FVec Ideal SFeat .f32 :=
  fun i => ∑ k : Fin 128, x (ix2 (n0 := 50000) (n1 := 128) (i 0) k) * W (ix2 (n0 := 128) (n1 := 128) k (i 1))

/-- The product at an entry given by its coordinates. -/
theorem product_apply (x : FVec Ideal SFeat .f32) (W : FVec Ideal SWeight .f32) (r : Fin 50000) (j : Fin 128) :
    product x W (ix2 r j) = ∑ k : Fin 128, x (ix2 r k) * W (ix2 k j) := rfl

/-- The host's `dot_general` of the node features by a weight matrix is the matrix product. -/
theorem dotGeneral_eq_product (D : DotDims SFeat SWeight SFeat)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (x : FVec Ideal SFeat .f32) (W : FVec Ideal SWeight .f32) :
    FloatOps.dotGeneral D prec sched x W = product x W := by
  funext i
  obtain ⟨r, j, rfl⟩ : ∃ (r : Fin 50000) (j : Fin 128), i = ix2 r j := ⟨i 0, i 1, eq_ix2 i⟩
  rw [product_apply]
  exact LibPlainDot.dotGeneral_plain_apply D hlc hrc hln hrn hlb hrb prec sched x W r j

end Cert.GraphConv

end
-- ==== Proof.Region0.lean ====
/-
  The first matrix-product region leaves the product of its two arrays in its result array.

  The region runs the matrix-product body at 25 grid points. Point `t` is handed rows `2000 t … 2000 t + 1999` of the
  feature array and the whole 128 × 128 weight matrix, and writes back the same rows of the result array. The body
  changes both blocks to a narrower float format (the identity on extended reals), multiplies them into a zero
  accumulator and stores the product. So what point `t` writes back is block `t` of ONE array, the matrix product of
  the two arrays as the region finds them; the 25 blocks tile the result array, which therefore ends holding that
  product. The region is stated at any contents `V` of the buffers on entry.
-/
import proofs.«138168_j48533130445252_1_alg».proof.Proof.Gen.KernelIdeal.Frame
import proofs.«138168_j48533130445252_1_alg».proof.Proof.Product
import Idealize.ShloMosaic.Lib.Pipeline.Value

set_option maxRecDepth 16384

noncomputable section

namespace Cert.KernelIdeal.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

/-- The zero offsets of a whole-block access, as the constant function. -/
theorem hz : (![0, 0] : Fin 2 → Nat) = fun _ => 0 := funext fun a => by fin_cases a <;> rfl

/-! ## Region 0: the first layer's product -/

/-- The body's result block at entry `(p, q)`: the sum over `k` of the feature block's `(p, k)` times the weight matrix's
    `(k, q)` — the change of format before the product is the identity on extended reals, and the product accumulates
    into zero. -/
theorem pay0_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact LibPlainMatmul.matmul_zero_apply dot_S2000x128_S128x128_S2000x128_1_0_0_1_n_n rfl rfl rfl rfl rfl rfl none _ _ p q

/-- The printed index maps over the 25 grid points: point `t` takes rows `2000 t … 2000 t + 1999` of the features and of
    the result, all their columns, and the whole weight matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A result block is the block of the whole product: if the feature block holds rows `2000 T …` of `A` and the weight
    block is `B`, the body's result at `j` is `product A B` at row `2000 T + j₀`, column `j₁`. -/
theorem block0_eq (A : FVec Ideal SFeat .f32) (B : FVec Ideal SWeight .f32)
    (x0 : Vec Ideal S2000x128 .f32) (x1 : Vec Ideal S128x128 .f32) (T : Nat)
    (h0 : ∀ (p : Fin 2000) (k : Fin 128) (r : Fin 50000), r.val = T * 2000 + p.val → x0 (ix2 p k) = A (ix2 r k))
    (h1 : ∀ (k q : Fin 128), x1 (ix2 k q) = B (ix2 k q))
    (j : S2000x128.Idx) (i : SFeat.Idx) (hi0 : (i 0).val = T * 2000 + (j 0).val) (hi1 : (i 1).val = (j 1).val) :
    k0_pay1 (F := Ideal) x0 x1 j = product A B i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hi1
  subst hs
  rw [pay0_apply, product_apply]
  exact Finset.sum_congr rfl fun k _ => by rw [h0 p k r hi0, h1 k s]

variable (V : (c : Dev nD) → (b : Ref sig .tc) → Buf (Elt Ideal) ((c : Thread nD τ).loc b))

/-- What point `t` writes back is block `t` of the product of the two arrays as the region finds them. -/
theorem flushed0 (c : Dev nD) (t : Fin cfg0.N) :
    (dat0 (F := Ideal) V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts0 t
  funext j
  show k0_pay1 (iblk0 V c 0 t) (iblk0 V c 1 t) j
    = product (V c main_arg0) (V c main_arg2) (((cfg0.win 2).blk t).view.emb j)
  refine block0_eq (V c main_arg0) (V c main_arg2) _ _ t.val ?_ ?_ j _ ?_ ?_
  · intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 2000 + 1 * p.val = r.val; omega
    | ⟨1, _⟩ => show win0_0.index t (1 : Fin 2) * 128 + 1 * k.val = k.val; omega
  · intro k q
    show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 2000 + 1 * (j 0).val = t.val * 2000 + (j 0).val; omega
  · show win0_2.index t (1 : Fin 2) * 128 + 1 * (j 1).val = (j 1).val; omega

/-- An entry of the result array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v27).slice (win0_2.rect t)).set ↔ _
  rw [View.set_slice_whole, Rect.mem_set_unit]
  exact Iff.rfl

/-- The 25 blocks of 2000 rows tile the 50000 rows: row `r` is in the block of point `r / 2000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 2000 < cfg0.N := lt_of_lt_of_eq (by omega : (i 0).val / 2000 < 25) N_0.symm
  refine ⟨⟨(i 0).val / 2000, hN⟩, flush0_2 _, ?_⟩
  obtain ⟨e0, e1, e2, e3, e4, e5⟩ := idx_facts0 ⟨(i 0).val / 2000, hN⟩
  rw [mem_blk0]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 128 ≤ (i 1).val
      ∧ (i 1).val < win0_2.index ⟨(i 0).val / 2000, hN⟩ (1 : Fin 2) * 128 + 128
    omega

/-- THE RESULT ARRAY of region 0 after its run: the matrix product of the two arrays as the region finds them. -/
theorem array0 (c : Dev nD) :
    (dat0 (F := Ideal) V c).arrAt 2 cfg0.N = product (V c main_arg0) (V c main_arg2) :=
  (dat0 (F := Ideal) V c).arrAt_eq_of_cover 2 _ (fun t _ => flushed0 V c t) (cover0)

end Cert.KernelIdeal.Region0

end
-- ==== Proof.Region1.lean ====
/-
  The second matrix-product region leaves the product of its two arrays in its result array.

  The region runs the matrix-product body at 25 grid points. Point `t` is handed rows `2000 t … 2000 t + 1999` of the
  feature array and the whole 128 × 128 weight matrix, and writes back the same rows of the result array. The body
  changes both blocks to a narrower float format (the identity on extended reals), multiplies them into a zero
  accumulator and stores the product. So what point `t` writes back is block `t` of ONE array, the matrix product of
  the two arrays as the region finds them; the 25 blocks tile the result array, which therefore ends holding that
  product. The region is stated at any contents `V` of the buffers on entry.
-/
import proofs.«138168_j48533130445252_1_alg».proof.Proof.Gen.KernelIdeal.Frame
import proofs.«138168_j48533130445252_1_alg».proof.Proof.Product
import Idealize.ShloMosaic.Lib.Pipeline.Value

set_option maxRecDepth 16384

noncomputable section

namespace Cert.KernelIdeal.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

/-- The zero offsets of a whole-block access, as the constant function. -/
theorem hz : (![0, 0] : Fin 2 → Nat) = fun _ => 0 := funext fun a => by fin_cases a <;> rfl

/-! ## Region 1: the second layer's product -/

/-- The body's result block at entry `(p, q)`: the sum over `k` of the feature block's `(p, k)` times the weight matrix's
    `(k, q)` — the change of format before the product is the identity on extended reals, and the product accumulates
    into zero. -/
theorem pay1_apply (x0 : Vec Ideal S2000x128 .f32) (x1 : Vec Ideal S128x128 .f32) (p : Fin 2000) (q : Fin 128) :
    k1_pay1 (F := Ideal) x0 x1 (ix2 p q) = ∑ k : Fin 128, x0 (ix2 p k) * x1 (ix2 k q) := by
  unfold k1_pay1
  rw [shapeCast_self]
  exact LibPlainMatmul.matmul_zero_apply dot_S2000x128_S128x128_S2000x128_1_0_0_1_n_n rfl rfl rfl rfl rfl rfl none _ _ p q

/-- The printed index maps over the 25 grid points: point `t` takes rows `2000 t … 2000 t + 1999` of the features and of
    the result, all their columns, and the whole weight matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A result block is the block of the whole product: if the feature block holds rows `2000 T …` of `A` and the weight
    block is `B`, the body's result at `j` is `product A B` at row `2000 T + j₀`, column `j₁`. -/
theorem block1_eq (A : FVec Ideal SFeat .f32) (B : FVec Ideal SWeight .f32)
    (x0 : Vec Ideal S2000x128 .f32) (x1 : Vec Ideal S128x128 .f32) (T : Nat)
    (h0 : ∀ (p : Fin 2000) (k : Fin 128) (r : Fin 50000), r.val = T * 2000 + p.val → x0 (ix2 p k) = A (ix2 r k))
    (h1 : ∀ (k q : Fin 128), x1 (ix2 k q) = B (ix2 k q))
    (j : S2000x128.Idx) (i : SFeat.Idx) (hi0 : (i 0).val = T * 2000 + (j 0).val) (hi1 : (i 1).val = (j 1).val) :
    k1_pay1 (F := Ideal) x0 x1 j = product A B i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hi1
  subst hs
  rw [pay1_apply, product_apply]
  exact Finset.sum_congr rfl fun k _ => by rw [h0 p k r hi0, h1 k s]

variable (V : (c : Dev nD) → (b : Ref sig .tc) → Buf (Elt Ideal) ((c : Thread nD τ).loc b))

/-- What point `t` writes back is block `t` of the product of the two arrays as the region finds them. -/
theorem flushed1 (c : Dev nD) (t : Fin cfg1.N) :
    (dat1 (F := Ideal) V c).flushed 2 t
      = ((cfg1.win 2).blk t).view.read (Elt Ideal) (product (V c main_v44) (V c main_arg4)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  obtain ⟨e0, e1, e2, e3, e4, e5⟩ := idx_facts1 t
  funext j
  show k1_pay1 (iblk1 V c 0 t) (iblk1 V c 1 t) j
    = product (V c main_v44) (V c main_arg4) (((cfg1.win 2).blk t).view.emb j)
  refine block1_eq (V c main_v44) (V c main_arg4) _ _ t.val ?_ ?_ j _ ?_ ?_
  · intro p k r hr
    show V c main_v44 (((cfg1.win 0).blk t).view.emb (ix2 p k)) = V c main_v44 (ix2 r k)
    refine congrArg _ (funext fun a => Fin.ext ?_)
    match a with
    | ⟨0, _⟩ => show win1_0.index t (0 : Fin 2) * 2000 + 1 * p.val = r.val; omega
    | ⟨1, _⟩ => show win1_0.index t (1 : Fin 2) * 128 + 1 * k.val = k.val; omega
  · intro k q
    show V c main_arg4 (((cfg1.win 1).blk t).view.emb (ix2 k q)) = V c main_arg4 (ix2 k q)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show win1_2.index t (0 : Fin 2) * 2000 + 1 * (j 0).val = t.val * 2000 + (j 0).val; omega
  · show win1_2.index t (1 : Fin 2) * 128 + 1 * (j 1).val = (j 1).val; omega

/-- An entry of the result array is in point `t`'s block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v45).slice (win1_2.rect t)).set ↔ _
  rw [View.set_slice_whole, Rect.mem_set_unit]
  exact Iff.rfl

/-- The 25 blocks of 2000 rows tile the 50000 rows: row `r` is in the block of point `r / 2000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 2000 < cfg1.N := lt_of_lt_of_eq (by omega : (i 0).val / 2000 < 25) N_1.symm
  refine ⟨⟨(i 0).val / 2000, hN⟩, flush1_2 _, ?_⟩
  obtain ⟨e0, e1, e2, e3, e4, e5⟩ := idx_facts1 ⟨(i 0).val / 2000, hN⟩
  rw [mem_blk1]
  intro a
  match a with
  | ⟨0, _⟩ =>
    show win1_2.index ⟨(i 0).val / 2000, hN⟩ (0 : Fin 2) * 2000 ≤ (i 0).val
      ∧ (i 0).val < win1_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hN⟩ (1 : Fin 2) * 128 ≤ (i 1).val
      ∧ (i 1).val < win1_2.index ⟨(i 0).val / 2000, hN⟩ (1 : Fin 2) * 128 + 128
    omega

/-- THE RESULT ARRAY of region 1 after its run: the matrix product of the two arrays as the region finds them. -/
theorem array1 (c : Dev nD) :
    (dat1 (F := Ideal) V c).arrAt 2 cfg1.N = product (V c main_v44) (V c main_arg4) :=
  (dat1 (F := Ideal) V c).arrAt_eq_of_cover 2 _ (fun t _ => flushed1 V c t) (cover1)

end Cert.KernelIdeal.Region1

end
-- ==== Proof.HostStretches.lean ====
/-
  What each stretch of host operations between the kernel regions computes, from ANY buffer contents.

  The program's host operations come in four stretches. From contents `W` of the buffers:
  * the first builds the source and target lists from the edge array and the weights of the entries;
  * the second is one layer's aggregation of the first region's result (sent along the entries, weighted, summed into
    the targets, plus the first bias);
  * the third is the positive part;
  * the fourth is the same aggregation of the second region's result, with the second bias.
  Each is read off the list of operations: an operation's result buffer holds its function of its operands' buffers,
  and a buffer no operation of the stretch writes keeps its contents. Every statement holds for any float values.
-/
import proofs.«138168_j48533130445252_1_alg».proof.Proof.Gen.KernelIdeal.Launch
import proofs.«138168_j48533130445252_1_alg».proof.Proof.GraphConv
import Idealize.ShloMosaic.Lib.StableHlo.Run

set_option maxRecDepth 16384

noncomputable section

namespace Cert.KernelIdeal.Stretch

open Cert.KernelIdeal Cert.KernelIdeal.Gen Cert.GraphConv
open Idealize.ShloMosaic Idealize.ShloMosaic.TcCoe Idealize.SL.Sem Idealize.ShloMosaic.StableHlo

variable {F : FTy → Type} [FloatOps F] (W : Valuation τ sig (Elt F))

/-! ## Before the first region: the edge lists and the weights of the entries -/

/-- The source list: row 0 of the edge array, then the self loops. -/
theorem pre_sources : StableHlo.after (hostOps0 (F := F)) W (Proc.devRef .tc main_v5) = sources (W (Proc.devRef .tc main_arg1)) := by
  after_results_simp
  rfl

/-- The target list: row 1 of the edge array, then the self loops. -/
theorem pre_targets : StableHlo.after (hostOps0 (F := F)) W (Proc.devRef .tc main_v6) = targets (W (Proc.devRef .tc main_arg1)) := by
  after_results_simp
  rfl

/-- The weights of the entries. -/
theorem pre_weights : StableHlo.after (hostOps0 (F := F)) W (Proc.devRef .tc main_v26)
    = edgeWeight (F := F) (sources (W (Proc.devRef .tc main_arg1))) (targets (W (Proc.devRef .tc main_arg1))) := by
  after_results_simp
  rfl

/-- The features, both weight matrices and both biases are not written. -/
theorem pre_keep_arg0 : StableHlo.after (hostOps0 (F := F)) W (Proc.devRef .tc main_arg0) = W (Proc.devRef .tc main_arg0) := by
  after_results_simp
theorem pre_keep_arg2 : StableHlo.after (hostOps0 (F := F)) W (Proc.devRef .tc main_arg2) = W (Proc.devRef .tc main_arg2) := by
  after_results_simp
theorem pre_keep_arg3 : StableHlo.after (hostOps0 (F := F)) W (Proc.devRef .tc main_arg3) = W (Proc.devRef .tc main_arg3) := by
  after_results_simp
theorem pre_keep_arg4 : StableHlo.after (hostOps0 (F := F)) W (Proc.devRef .tc main_arg4) = W (Proc.devRef .tc main_arg4) := by
  after_results_simp
theorem pre_keep_arg5 : StableHlo.after (hostOps0 (F := F)) W (Proc.devRef .tc main_arg5) = W (Proc.devRef .tc main_arg5) := by
  after_results_simp

/-! ## Between the regions: the first layer's aggregation, then the positive part -/

/-- The first layer's aggregation of the first region's result. -/
theorem mid_layer : StableHlo.after (hostOps1 (F := F)) W (Proc.devRef .tc main_v43)
    = propagate (F := F) (W (Proc.devRef .tc main_v27)) (W (Proc.devRef .tc main_v5)) (W (Proc.devRef .tc main_v6))
        (W (Proc.devRef .tc main_v26)) (W (Proc.devRef .tc main_arg3)) := by
  after_results_simp
  rfl

/-- The lists, the weights, the second weight matrix and the second bias are not written. -/
theorem mid_keep_v5 : StableHlo.after (hostOps1 (F := F)) W (Proc.devRef .tc main_v5) = W (Proc.devRef .tc main_v5) := by
  after_results_simp
theorem mid_keep_v6 : StableHlo.after (hostOps1 (F := F)) W (Proc.devRef .tc main_v6) = W (Proc.devRef .tc main_v6) := by
  after_results_simp
theorem mid_keep_v26 : StableHlo.after (hostOps1 (F := F)) W (Proc.devRef .tc main_v26) = W (Proc.devRef .tc main_v26) := by
  after_results_simp
theorem mid_keep_arg4 : StableHlo.after (hostOps1 (F := F)) W (Proc.devRef .tc main_arg4) = W (Proc.devRef .tc main_arg4) := by
  after_results_simp
theorem mid_keep_arg5 : StableHlo.after (hostOps1 (F := F)) W (Proc.devRef .tc main_arg5) = W (Proc.devRef .tc main_arg5) := by
  after_results_simp

/-- The positive part. -/
theorem mid_relu : StableHlo.after (hostOps1_1 (F := F)) W (Proc.devRef .tc main_v44) = relu (F := F) (W (Proc.devRef .tc main_v43)) := by
  after_results_simp
  rfl

/-- The lists, the weights, the second weight matrix and the second bias are not written. -/
theorem relu_keep_v5 : StableHlo.after (hostOps1_1 (F := F)) W (Proc.devRef .tc main_v5) = W (Proc.devRef .tc main_v5) := by
  after_results_simp
theorem relu_keep_v6 : StableHlo.after (hostOps1_1 (F := F)) W (Proc.devRef .tc main_v6) = W (Proc.devRef .tc main_v6) := by
  after_results_simp
theorem relu_keep_v26 : StableHlo.after (hostOps1_1 (F := F)) W (Proc.devRef .tc main_v26) = W (Proc.devRef .tc main_v26) := by
  after_results_simp
theorem relu_keep_arg4 : StableHlo.after (hostOps1_1 (F := F)) W (Proc.devRef .tc main_arg4) = W (Proc.devRef .tc main_arg4) := by
  after_results_simp
theorem relu_keep_arg5 : StableHlo.after (hostOps1_1 (F := F)) W (Proc.devRef .tc main_arg5) = W (Proc.devRef .tc main_arg5) := by
  after_results_simp

/-! ## After the second region: the second layer's aggregation -/

/-- The second layer's aggregation of the second region's result: the program's result. -/
theorem post_layer : StableHlo.after (hostOps2 (F := F)) W (Proc.devRef .tc main_v61)
    = propagate (F := F) (W (Proc.devRef .tc main_v45)) (W (Proc.devRef .tc main_v5)) (W (Proc.devRef .tc main_v6))
        (W (Proc.devRef .tc main_v26)) (W (Proc.devRef .tc main_arg5)) := by
  after_results_simp
  rfl

end Cert.KernelIdeal.Stretch

end
-- ==== Proof.KernelValue.lean ====
/-
  The idealized kernel program's result array is the two-layer network at the matrix product.

  The buffer contents at the six boundaries between the program's segments are followed from the launch memory to the
  end. Write `S`, `D` for the source and target lists of the launch edge array and `wt` for the weights of the
  entries.
  * At the first region's entry the lists' and weights' buffers hold `S`, `D`, `wt`, and the arguments their launch
    contents.
  * The first region leaves `product x W₁` in its result array and writes nothing else.
  * The next host operations leave the first layer's aggregation `propagate (product x W₁) S D wt b₁` and then its
    positive part; they do not write the lists, the weights or the remaining arguments.
  * The second region leaves the product of that positive part with `W₂`.
  * The last host operations leave the second layer's aggregation in the result array.
  Put together, the result array holds `network product x e W₁ b₁ W₂ b₂`.
-/
import proofs.«138168_j48533130445252_1_alg».proof.Proof.Gen.KernelIdeal.Frame
import proofs.«138168_j48533130445252_1_alg».proof.Proof.Region0
import proofs.«138168_j48533130445252_1_alg».proof.Proof.Region1
import proofs.«138168_j48533130445252_1_alg».proof.Proof.HostStretches

set_option maxRecDepth 16384

noncomputable section

namespace Cert.KernelIdeal.Result

open Cert.KernelIdeal Cert.KernelIdeal.Gen Cert.GraphConv
open Idealize.ShloMosaic Idealize.ShloMosaic.TcCoe Idealize.SL.Sem

variable (m : (ℓ : Loc nD τ sig) → Buf (Elt Ideal) ℓ) (ρ : Dev nD → PrngReg) (c : Dev nD)

/-- The source list of the launch edge array. -/
abbrev src : IVec SAll 32 := sources (m ((c : Thread nD τ).loc main_arg1))
/-- The target list of the launch edge array. -/
abbrev tgt : IVec SAll 32 := targets (m ((c : Thread nD τ).loc main_arg1))
/-- The weights of the entries of the launch edge array. -/
abbrev wts : FVec Ideal SAll .f32 := edgeWeight (F := Ideal) (src m c) (tgt m c)

/-! ## At the first region's entry -/

theorem entry0_sources : W1 m ρ c (Proc.devRef .tc main_v5) = src m c := Stretch.pre_sources (W0 m ρ c)
theorem entry0_targets : W1 m ρ c (Proc.devRef .tc main_v6) = tgt m c := Stretch.pre_targets (W0 m ρ c)
theorem entry0_weights : W1 m ρ c (Proc.devRef .tc main_v26) = wts m c := Stretch.pre_weights (W0 m ρ c)
theorem entry0_arg0 : W1 m ρ c (Proc.devRef .tc main_arg0) = (m ((c : Thread nD τ).loc main_arg0)) := Stretch.pre_keep_arg0 (W0 m ρ c)
theorem entry0_arg2 : W1 m ρ c (Proc.devRef .tc main_arg2) = (m ((c : Thread nD τ).loc main_arg2)) := Stretch.pre_keep_arg2 (W0 m ρ c)
theorem entry0_arg3 : W1 m ρ c (Proc.devRef .tc main_arg3) = (m ((c : Thread nD τ).loc main_arg3)) := Stretch.pre_keep_arg3 (W0 m ρ c)
theorem entry0_arg4 : W1 m ρ c (Proc.devRef .tc main_arg4) = (m ((c : Thread nD τ).loc main_arg4)) := Stretch.pre_keep_arg4 (W0 m ρ c)
theorem entry0_arg5 : W1 m ρ c (Proc.devRef .tc main_arg5) = (m ((c : Thread nD τ).loc main_arg5)) := Stretch.pre_keep_arg5 (W0 m ρ c)

/-! ## At the first region's exit -/

/-- The first region's result array: the product of the features and the first weight matrix. -/
theorem exit0_product : W2 m ρ c (Proc.devRef .tc main_v27) = product (m ((c : Thread nD τ).loc main_arg0)) (m ((c : Thread nD τ).loc main_arg2)) :=
  (W2_arr m ρ c 2).trans ((Region0.array0 (V1 m ρ) c).trans (congrArg₂ product (entry0_arg0 m ρ c) (entry0_arg2 m ρ c)))
theorem exit0_sources : W2 m ρ c (Proc.devRef .tc main_v5) = src m c := (W2_of_ne m ρ c main_v5 (by decide)).trans (entry0_sources m ρ c)
theorem exit0_targets : W2 m ρ c (Proc.devRef .tc main_v6) = tgt m c := (W2_of_ne m ρ c main_v6 (by decide)).trans (entry0_targets m ρ c)
theorem exit0_weights : W2 m ρ c (Proc.devRef .tc main_v26) = wts m c := (W2_of_ne m ρ c main_v26 (by decide)).trans (entry0_weights m ρ c)
theorem exit0_arg3 : W2 m ρ c (Proc.devRef .tc main_arg3) = (m ((c : Thread nD τ).loc main_arg3)) := (W2_of_ne m ρ c main_arg3 (by decide)).trans (entry0_arg3 m ρ c)
theorem exit0_arg4 : W2 m ρ c (Proc.devRef .tc main_arg4) = (m ((c : Thread nD τ).loc main_arg4)) := (W2_of_ne m ρ c main_arg4 (by decide)).trans (entry0_arg4 m ρ c)
theorem exit0_arg5 : W2 m ρ c (Proc.devRef .tc main_arg5) = (m ((c : Thread nD τ).loc main_arg5)) := (W2_of_ne m ρ c main_arg5 (by decide)).trans (entry0_arg5 m ρ c)

/-! ## After the first layer's aggregation -/

/-- The first layer's aggregation. -/
theorem layer1_value : W3 m ρ c (Proc.devRef .tc main_v43)
    = propagate (product (m ((c : Thread nD τ).loc main_arg0)) (m ((c : Thread nD τ).loc main_arg2))) (src m c) (tgt m c) (wts m c) (m ((c : Thread nD τ).loc main_arg3)) :=
  (Stretch.mid_layer (W2 m ρ c)).trans (propagate_congr (exit0_product m ρ c) (exit0_sources m ρ c) (exit0_targets m ρ c)
    (exit0_weights m ρ c) (exit0_arg3 m ρ c))
theorem layer1_sources : W3 m ρ c (Proc.devRef .tc main_v5) = src m c := (Stretch.mid_keep_v5 (W2 m ρ c)).trans (exit0_sources m ρ c)
theorem layer1_targets : W3 m ρ c (Proc.devRef .tc main_v6) = tgt m c := (Stretch.mid_keep_v6 (W2 m ρ c)).trans (exit0_targets m ρ c)
theorem layer1_weights : W3 m ρ c (Proc.devRef .tc main_v26) = wts m c := (Stretch.mid_keep_v26 (W2 m ρ c)).trans (exit0_weights m ρ c)
theorem layer1_arg4 : W3 m ρ c (Proc.devRef .tc main_arg4) = (m ((c : Thread nD τ).loc main_arg4)) := (Stretch.mid_keep_arg4 (W2 m ρ c)).trans (exit0_arg4 m ρ c)
theorem layer1_arg5 : W3 m ρ c (Proc.devRef .tc main_arg5) = (m ((c : Thread nD τ).loc main_arg5)) := (Stretch.mid_keep_arg5 (W2 m ρ c)).trans (exit0_arg5 m ρ c)

/-! ## At the second region's entry -/

/-- The positive part of the first layer. -/
theorem entry1_hidden : W4 m ρ c (Proc.devRef .tc main_v44)
    = relu (propagate (product (m ((c : Thread nD τ).loc main_arg0)) (m ((c : Thread nD τ).loc main_arg2))) (src m c) (tgt m c) (wts m c) (m ((c : Thread nD τ).loc main_arg3))) :=
  (Stretch.mid_relu (W3 m ρ c)).trans (congrArg relu (layer1_value m ρ c))
theorem entry1_sources : W4 m ρ c (Proc.devRef .tc main_v5) = src m c := (Stretch.relu_keep_v5 (W3 m ρ c)).trans (layer1_sources m ρ c)
theorem entry1_targets : W4 m ρ c (Proc.devRef .tc main_v6) = tgt m c := (Stretch.relu_keep_v6 (W3 m ρ c)).trans (layer1_targets m ρ c)
theorem entry1_weights : W4 m ρ c (Proc.devRef .tc main_v26) = wts m c := (Stretch.relu_keep_v26 (W3 m ρ c)).trans (layer1_weights m ρ c)
theorem entry1_arg4 : W4 m ρ c (Proc.devRef .tc main_arg4) = (m ((c : Thread nD τ).loc main_arg4)) := (Stretch.relu_keep_arg4 (W3 m ρ c)).trans (layer1_arg4 m ρ c)
theorem entry1_arg5 : W4 m ρ c (Proc.devRef .tc main_arg5) = (m ((c : Thread nD τ).loc main_arg5)) := (Stretch.relu_keep_arg5 (W3 m ρ c)).trans (layer1_arg5 m ρ c)

/-! ## At the second region's exit -/

/-- The second region's result array: the product of the hidden features and the second weight matrix. -/
theorem exit1_product : W5 m ρ c (Proc.devRef .tc main_v45)
    = product (relu (propagate (product (m ((c : Thread nD τ).loc main_arg0)) (m ((c : Thread nD τ).loc main_arg2))) (src m c) (tgt m c) (wts m c) (m ((c : Thread nD τ).loc main_arg3)))) (m ((c : Thread nD τ).loc main_arg4)) :=
  (W5_arr m ρ c 2).trans ((Region1.array1 (V4 m ρ) c).trans (congrArg₂ product (entry1_hidden m ρ c) (entry1_arg4 m ρ c)))
theorem exit1_sources : W5 m ρ c (Proc.devRef .tc main_v5) = src m c := (W5_of_ne m ρ c main_v5 (by decide)).trans (entry1_sources m ρ c)
theorem exit1_targets : W5 m ρ c (Proc.devRef .tc main_v6) = tgt m c := (W5_of_ne m ρ c main_v6 (by decide)).trans (entry1_targets m ρ c)
theorem exit1_weights : W5 m ρ c (Proc.devRef .tc main_v26) = wts m c := (W5_of_ne m ρ c main_v26 (by decide)).trans (entry1_weights m ρ c)
theorem exit1_arg5 : W5 m ρ c (Proc.devRef .tc main_arg5) = (m ((c : Thread nD τ).loc main_arg5)) := (W5_of_ne m ρ c main_arg5 (by decide)).trans (entry1_arg5 m ρ c)

/-! ## The result -/

/-- The result array at the end of the run is the network at the matrix product, of the launch contents of the arguments. -/
theorem result_eq : W6 m ρ c (Proc.devRef .tc main_v61)
    = network (F := Ideal) product (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Stretch.post_layer (W5 m ρ c)).trans (propagate_congr (exit1_product m ρ c) (exit1_sources m ρ c) (exit1_targets m ρ c)
    (exit1_weights m ρ c) (exit1_arg5 m ρ c))

end Cert.KernelIdeal.Result

end
-- ==== Proof.lean ====
/-
  A two-layer graph convolution: the kernel program against its reference, over the extended reals.

  Both programs compute, for node features `x`, an edge array `e`, weight matrices `W₁`, `W₂` and biases `b₁`, `b₂`,

      layer (mm (relu (layer (mm x W₁) b₁)) W₂) b₂

  where `layer h b` sends the rows of `h` along the edges (self loops added), scales each by
  `deg(source)^(-1/2) · deg(target)^(-1/2)`, sums them into their targets and adds `b` to every row
  (`GraphConv.network`). They share every host operation of this formula — gather, scatter-add, the reciprocal square
  root — and differ in the matrix product `mm` alone: the reference applies the host's `dot_general`; the kernel program
  launches a kernel that takes the features 2000 rows at a time, changes both operands to a narrower float format and
  multiplies them on the matrix unit into a zero accumulator.

  Over the extended reals a change of float format is the identity, and both products are, entry by entry, the same
  exact sum `∑ k, x (r, k) · W (k, j)` (`GraphConv.product`): no rounding and no order of summation is left. So each
  program's result array is `network product` of the arguments (`RefValue.result_eq` with `hostProduct_eq`;
  `Result.result_eq`), and the two agree on every entry. Nothing about gather or scatter-add is used beyond their being
  the same operations applied to equal operands, and no finiteness of the inputs is needed: the precondition is not
  opened.

  The kernel program's frame claims are the generated frames; the reference has no kernel and its frame is its
  generated run with the result dropped; the idealization rewrote no operation, so `preserves` is trivial.
-/
import proofs.«138168_j48533130445252_1_alg».proof.Defs
import proofs.«138168_j48533130445252_1_alg».proof.Proof.Gen.Kernel
import proofs.«138168_j48533130445252_1_alg».proof.Proof.Gen.Kernel.Skeleton
import proofs.«138168_j48533130445252_1_alg».proof.Proof.Gen.Kernel.Launch
import proofs.«138168_j48533130445252_1_alg».proof.Proof.Gen.Kernel.Points
import proofs.«138168_j48533130445252_1_alg».proof.Proof.Gen.Kernel.Frame
import proofs.«138168_j48533130445252_1_alg».proof.Proof.Gen.KernelIdeal
import proofs.«138168_j48533130445252_1_alg».proof.Proof.Gen.KernelIdeal.Skeleton
import proofs.«138168_j48533130445252_1_alg».proof.Proof.Gen.KernelIdeal.Launch
import proofs.«138168_j48533130445252_1_alg».proof.Proof.Gen.KernelIdeal.Points
import proofs.«138168_j48533130445252_1_alg».proof.Proof.Gen.KernelIdeal.Frame
import proofs.«138168_j48533130445252_1_alg».proof.Proof.Gen.ReferenceIdeal
import proofs.«138168_j48533130445252_1_alg».proof.Proof.Gen.ReferenceIdeal.Run
import proofs.«138168_j48533130445252_1_alg».proof.Proof.Gen.Pre_finite_inputs
import proofs.«138168_j48533130445252_1_alg».proof.Proof.RefTerm
import proofs.«138168_j48533130445252_1_alg».proof.Proof.KernelRun
import proofs.«138168_j48533130445252_1_alg».proof.Proof.KernelValue
import Idealize.ShloMosaic.Adequacy
import Idealize.ShloMosaic.Init

noncomputable section

namespace Cert.Proof

open Idealize.ShloMosaic Idealize.ShloMosaic.TcCoe Idealize.SL.Sem Cert.GraphConv

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The two products are one -/

/-- Over the extended reals the host's `dot_general` of the features by a weight matrix is the matrix product. -/
theorem hostProduct_eq : Cert.ReferenceIdeal.RefValue.hostProduct (F := Ideal) = product := by
  funext x W
  exact dotGeneral_eq_product Cert.ReferenceIdeal.dot_S50000x128_S128x128_S50000x128_1_0_0_1_n_n rfl rfl rfl rfl rfl rfl none .single x W

/-! ## The results agree -/

/-- From memories agreeing on the arguments both programs run, and both result arrays are the network at the matrix
    product of the same arguments. -/
theorem algebraic : Cert.algebraic_KernelIdeal_ReferenceIdeal := by
  intro m ρ m' ρ' _ hagree
  refine ⟨fun c => network (F := Ideal) product (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result_eq m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, hostProduct_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
